-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432x1 : Shape := ⟨2, ![33554432, 1]⟩
abbrev S_ : Shape := ⟨0, ![]⟩

class Facts : Prop where
  bcast_S_S33554432x1 : S_.BroadcastsInDim S33554432x1 (![] : Fin 0 → Fin S33554432x1.rank)
  reducesTo_S33554432x1_S_d0_1 : S33554432x1.ReducesTo [0, 1] S_
  h_S_ : 0 < S_.numel

variable [Facts]

def fn {F : FTy → Type} [FloatOps F] (main_arg0 : FVec F S33554432x1 .f32) (main_arg1 : FVec F S33554432x1 .f32) : IVec S_ 1 :=
  let main_v0 : FVec F S33554432x1 .f32 := Host.absf main_arg0
  let main_cst : FVec F S_ .f32 := constant S_ .f32 0x7F800000#32
  let main_v1 : FVec F S33554432x1 .f32 := broadcastInDim S33554432x1 ![] bcast_S_S33554432x1 main_cst
  let main_v2 : IVec S33554432x1 1 := cmpf .olt main_v0 main_v1
  let main_c : IVec S_ 1 := constantI S_ 1 1#1
  let main_v3 : IVec S_ 1 := (fun x v => Host.reduce IntOp.andi x v reducesTo_S33554432x1_S_d0_1 h_S_) main_v2 main_c
  let main_v4 : FVec F S33554432x1 .f32 := Host.absf main_arg1
  let main_cst_0 : FVec F S_ .f32 := constant S_ .f32 0x7F800000#32
  let main_v5 : FVec F S33554432x1 .f32 := broadcastInDim S33554432x1 ![] bcast_S_S33554432x1 main_cst_0
  let main_v6 : IVec S33554432x1 1 := cmpf .olt main_v4 main_v5
  let main_c_1 : IVec S_ 1 := constantI S_ 1 1#1
  let main_v7 : IVec S_ 1 := (fun x v => Host.reduce IntOp.andi x v reducesTo_S33554432x1_S_d0_1 h_S_) main_v6 main_c_1
  let main_v8 : IVec S_ 1 := andi main_v3 main_v7
  main_v8
-- ==== Kernel.lean ====
abbrev S33554432x1 : Shape := ⟨2, ![33554432, 1]⟩
abbrev S33554432 : Shape := ⟨1, ![33554432]⟩
abbrev S262144x128 : Shape := ⟨2, ![262144, 128]⟩
abbrev S2x8x128 : Shape := ⟨3, ![2, 8, 128]⟩
abbrev S16384x128 : Shape := ⟨2, ![16384, 128]⟩
abbrev S1x8x128 : Shape := ⟨3, ![1, 8, 128]⟩
abbrev S8x128 : Shape := ⟨2, ![8, 128]⟩
abbrev S2048x8x128 : Shape := ⟨3, ![2048, 8, 128]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S33554432x1, .f32⟩
  | .hbm, ⟨1, _⟩ => ⟨S33554432x1, .f32⟩
  | .hbm, ⟨2, _⟩ => ⟨S33554432, .f32⟩
  | .hbm, ⟨3, _⟩ => ⟨S33554432, .f32⟩
  | .hbm, ⟨4, _⟩ => ⟨S262144x128, .f32⟩
  | .hbm, ⟨5, _⟩ => ⟨S262144x128, .f32⟩
  | .hbm, ⟨6, _⟩ => ⟨S2x8x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S1x8x128, .f32⟩
  | .local _ .vmem, ⟨5, _⟩ => ⟨S1x8x128, .f32⟩
  | _, _ => ⟨S33554432x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432x1_S33554432 : S33554432x1.ShapeCasts S33554432
  shapeCasts_S33554432_S262144x128 : S33554432.ShapeCasts S262144x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S2048x8x128 : S16384x128.ShapeCasts S2048x8x128
  reduces_S2048x8x128_S8x128 : S2048x8x128.Reduces [0] S8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S262144x128.size a
  hwx0_1 : ∀ i : grid0.Coords, EltTy.bits .f32 = 32 ∨ (Rect.block (s := S262144x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v2) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432x1 : Shape := ⟨2, ![33554432, 1]⟩
abbrev S33554432 : Shape := ⟨1, ![33554432]⟩
abbrev S_ : Shape := ⟨0, ![]⟩
abbrev S1 : Shape := ⟨1, ![1]⟩

abbrev nBuf : Space → Nat
  | .hbm => 23
  | .vmem => 0
  | .smem => 0
  | _ => 0

abbrev bufTy : (tb : Table) → Fin (tcTables nBuf tb) → BufTy
  | .hbm, ⟨0, _⟩ => ⟨S33554432x1, .f32⟩
  | .hbm, ⟨1, _⟩ => ⟨S33554432x1, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S33554432, .i1⟩
  | .hbm, ⟨8, _⟩ => ⟨S_, .f32⟩
  | .hbm, ⟨9, _⟩ => ⟨S33554432, .f32⟩
  | .hbm, ⟨10, _⟩ => ⟨S33554432, .f32⟩
  | .hbm, ⟨11, _⟩ => ⟨S33554432, .i1⟩
  | .hbm, ⟨12, _⟩ => ⟨S33554432, .i1⟩
  | .hbm, ⟨13, _⟩ => ⟨S33554432, .f32⟩
  | .hbm, ⟨14, _⟩ => ⟨S_, .i32⟩
  | .hbm, ⟨15, _⟩ => ⟨S1, .i32⟩
  | .hbm, ⟨16, _⟩ => ⟨S33554432x1, .f32⟩
  | .hbm, ⟨17, _⟩ => ⟨S33554432x1, .f32⟩
  | .hbm, ⟨18, _⟩ => ⟨S33554432x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S33554432x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S33554432x1_S33554432 : S33554432x1.ShapeCasts S33554432
  bcast_S_S33554432 : S_.BroadcastsInDim S33554432 (![] : Fin 0 → Fin S33554432.rank)
  bcast_S_S1 : S_.BroadcastsInDim S1 (![] : Fin 0 → Fin S1.rank)
  reducesTo_S33554432x1_S_d0_1 : S33554432x1.ReducesTo [0, 1] S_
  h_S_ : 0 < S_.numel
  scatter_S33554432x1_S1_S33554432_0_1_1_0_wf : ScatterDims.WF S33554432x1 S1 S33554432 [0] [1] [1] 0

variable [Facts₀]

def scatter_S33554432x1_S1_S33554432_0_1_1_0 : ScatterDims S33554432x1 S1 S33554432 where
  updateWindowDims := [0]
  insertedWindowDims := [1]
  scatterDimsToOperandDims := [1]
  indexVectorDim := 0
  wf := scatter_S33554432x1_S1_S33554432_0_1_1_0_wf

class Facts : Prop extends Facts₀ where

variable [Facts]
-- ==== Proof.Pieces.lean ====
import proofs.«179878_j24378234372365_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole rank-3 tile, and of a whole rank-2 block. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its half: the body loads the two input blocks and the accumulator tile whole,
    and its one store covers the tile, so the tile ends holding the payload of those three loads. -/
theorem out_B (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (hc : ¬cond0_0 i) (x0 x1 : Vec F S16384x128 .f32) (xo : Vec F S1x8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread,
    View.ld_unit_zero (S := S16384x128) hz2, View.ld_unit_zero (S := S1x8x128) hz3]

/-- The first point of a half: the body first stores the zero tile, so the accumulator it then loads is that zero
    tile, and the tile ends holding the payload of the two input blocks and the zero tile. -/
theorem out_A (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (hc : cond0_0 i) (x0 x1 : Vec F S16384x128 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S16384x128) hz2]

end Cert.KernelIdeal.Pieces

end
-- ==== Proof.Term.lean ====
import Idealize.ShloMosaic.PureOps.Ideal
import Idealize.ShloMosaic.Lib.ValueIdx

/-!
# The loss of one prediction

For a prediction p and a target t the loss term is (p - t')^2, where t' is p when t lies strictly inside the band
between 0.9 p and 1.1 p (both comparisons ordered, the two factors the single-precision words nearest 1.1 and 0.9)
and t otherwise. Both programs compute exactly this term, element by element, with the same words.
-/

noncomputable section

namespace Cert.RangeLoss

open Idealize.ShloMosaic Idealize.ShloMosaic.ValueIdx
open scoped BigOperators

variable {F : FTy → Type} [FloatOps F]

/-- The squared distance from p to the band-adjusted target. -/
def dterm (p t : F .f32) : F .f32 :=
  FloatOps.mulf
    (FloatOps.subf p (Scalar.select (IntOp.andi
      (FloatOps.cmpf .ogt (FloatOps.mulf p (FloatOps.ofBits .f32 0x3F8CCCCD#32)) t)
      (FloatOps.cmpf .olt (FloatOps.mulf p (FloatOps.ofBits .f32 0x3F666666#32)) t)) p t))
    (FloatOps.subf p (Scalar.select (IntOp.andi
      (FloatOps.cmpf .ogt (FloatOps.mulf p (FloatOps.ofBits .f32 0x3F8CCCCD#32)) t)
      (FloatOps.cmpf .olt (FloatOps.mulf p (FloatOps.ofBits .f32 0x3F666666#32)) t)) p t))

/-- Position n of the flattened arguments, as the index (n, 0) of an argument (positions are taken modulo the
    number of elements, so that every natural number names an index). -/
def pos (n : ℕ) : (⟨2, ![33554432, 1]⟩ : Shape).Idx := ix2 ⟨n % 33554432, Nat.mod_lt _ (by norm_num)⟩ (0 : Fin 1)

/-- Every index of an argument is the position of its row. -/
theorem pos_row (i : (⟨2, ![33554432, 1]⟩ : Shape).Idx) : pos (i 0).val = i := by
  funext a
  match a with
  | ⟨0, _⟩ => exact Fin.ext (Nat.mod_eq_of_lt (i 0).isLt)
  | ⟨1, _⟩ =>
    apply Fin.ext
    have h1 : (i 1).val < 1 := (i 1).isLt
    show 0 = (i 1).val
    omega

/-- The mean both programs compute, from the loss term D n of each position n: the terms summed from zero, the
    total divided by the single-precision word of 2^25 (the number of positions). -/
def mean (D : ℕ → EReal) : (⟨0, ![]⟩ : Shape).Idx → EReal := fun _ =>
  FloatOps.hostDivf (F := Ideal) (φ := .f32)
    (Ideal.ofBits .f32 0x00000000#32 + ∑ n ∈ Finset.range 33554432, D n) (FloatOps.ofBits (F := Ideal) .f32 0x4C000000#32)

end Cert.RangeLoss

end
-- ==== Proof.Payload.lean ====
import proofs.«179878_j24378234372365_2_alg».proof.Proof.Gen.KernelIdeal.Skeleton
import proofs.«179878_j24378234372365_2_alg».proof.Proof.Term
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen Cert.RangeLoss

variable {F : FTy → Type} [FloatOps F]

/-- The block of loss terms of one block of predictions x0 and targets x1. -/
def diffsq (x0 x1 : Vec F S16384x128 .f32) : FVec F S16384x128 .f32 :=
  mulf
    (subf (shapeCast S16384x128 x0 shapeCasts_S16384x128_S16384x128)
      (select (andi
        (cmpf .ogt (mulf (shapeCast S16384x128 x0 shapeCasts_S16384x128_S16384x128) (broadcast S16384x128 (Scalar.ofBits .f32 0x3F8CCCCD#32))) (shapeCast S16384x128 x1 shapeCasts_S16384x128_S16384x128))
        (cmpf .olt (mulf (shapeCast S16384x128 x0 shapeCasts_S16384x128_S16384x128) (broadcast S16384x128 (Scalar.ofBits .f32 0x3F666666#32))) (shapeCast S16384x128 x1 shapeCasts_S16384x128_S16384x128)))
        (shapeCast S16384x128 x0 shapeCasts_S16384x128_S16384x128) (shapeCast S16384x128 x1 shapeCasts_S16384x128_S16384x128)))
    (subf (shapeCast S16384x128 x0 shapeCasts_S16384x128_S16384x128)
      (select (andi
        (cmpf .ogt (mulf (shapeCast S16384x128 x0 shapeCasts_S16384x128_S16384x128) (broadcast S16384x128 (Scalar.ofBits .f32 0x3F8CCCCD#32))) (shapeCast S16384x128 x1 shapeCasts_S16384x128_S16384x128))
        (cmpf .olt (mulf (shapeCast S16384x128 x0 shapeCasts_S16384x128_S16384x128) (broadcast S16384x128 (Scalar.ofBits .f32 0x3F666666#32))) (shapeCast S16384x128 x1 shapeCasts_S16384x128_S16384x128)))
        (shapeCast S16384x128 x0 shapeCasts_S16384x128_S16384x128) (shapeCast S16384x128 x1 shapeCasts_S16384x128_S16384x128)))

/-- Entry by entry it is the loss term of the entry. -/
theorem diffsq_apply (x0 x1 : Vec F S16384x128 .f32) (j : S16384x128.Idx) :
    diffsq x0 x1 j = dterm (x0 j) (x1 j) := by
  unfold diffsq
  simp only [shapeCast_self]
  rfl

/-- The payload written over the folded block of terms. -/
theorem pay2_eq (x0 x1 : Vec F S16384x128 .f32) (acc : Vec F S1x8x128 .f32) :
    k0_pay2 x0 x1 acc = shapeCast S1x8x128 (addf (shapeCast S8x128 acc shapeCasts_S1x8x128_S8x128)
      (multiReduction .add [0] S8x128 (shapeCast S2048x8x128 (diffsq x0 x1) shapeCasts_S16384x128_S2048x8x128)
        0x00000000#32 reduces_S2048x8x128_S8x128 (.inl rfl) rfl)) shapeCasts_S8x128_S1x8x128 := rfl

/-- Row 8 g + s of a block: the s-th row of the g-th group of eight. -/
def row (g : Fin 2048) (s : Fin 8) : Fin 16384 := ⟨8 * g.val + s.val, by omega⟩

/-- The block the reset stores is zero everywhere. -/
theorem pay1_apply (j : S1x8x128.Idx) : k0_pay1 (F := Ideal) j = 0 := by
  unfold k0_pay1
  rw [shapeCast_addUnit_apply ![8, 128]]
  exact Ideal.ofBits_zero_f32

/-- What one point adds: at sublane s and lane l, the accumulator's entry plus the loss terms of rows s, 8 + s,
    16 + s, ... of the point's block at lane l (the block viewed as 2048 groups of eight rows and summed over the
    groups). -/
theorem pay2_apply (x0 x1 : Vec Ideal S16384x128 .f32) (acc : Vec Ideal S1x8x128 .f32) (s : Fin 8) (l : Fin 128) :
    k0_pay2 (F := Ideal) x0 x1 acc (ix3 0 s l)
      = acc (ix3 0 s l) + ∑ g : Fin 2048, dterm (x0 (ix2 (row g s) l)) (x1 (ix2 (row g s) l)) := by
  rw [pay2_eq, shapeCast_addUnit_apply ![8, 128]]
  have e1 : (fun a : Fin 2 => (ix3 (0 : Fin 1) s l) a.succ) = ix2 s l := funext fun a => by
    match a with
    | ⟨0, _⟩ => rfl
    | ⟨1, _⟩ => rfl
  rw [e1, addf_apply]
  congr 1
  · rw [shapeCast_dropUnit_apply ![8, 128]]
    congr 1
    funext a
    match a with
    | ⟨0, _⟩ => rfl
    | ⟨1, _⟩ => rfl
    | ⟨2, _⟩ => rfl
  · refine (Ideal.multiReduction_add_single _ 0x00000000#32 reduces_S2048x8x128_S8x128 (.inl rfl) rfl (ix2 s l)).trans ?_
    refine Finset.sum_congr rfl fun g _ => ?_
    rw [shapeCast_apply (diffsq x0 x1) shapeCasts_S16384x128_S2048x8x128 _ (ix2 (row g s) l) ?_, diffsq_apply]
    rw [Shape.rowMajor_val_two, Shape.rowMajor_val_three]
    show (8 * g.val + s.val) * 128 + l.val = (g.val * 8 + s.val) * 128 + l.val
    omega

end Cert.KernelIdeal.Payload

end
-- ==== Proof.Blocks.lean ====
import proofs.«179878_j24378234372365_2_alg».proof.Proof.Gen.KernelIdeal.Frame
import proofs.«179878_j24378234372365_2_alg».proof.Proof.Term
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.RangeLoss

variable {F : FTy → Type} [FloatOps F]
variable (m : (ℓ : Loc nD τ sig) → Buf (Elt F) ℓ)

/-- The array window 0 stages is the predictions reshaped to 262144 rows of 128 lanes. -/
theorem V_v2 (c : Dev nD) : (V m c main_v2 : S262144x128.Idx → Elt F .f32)
    = shapeCast S262144x128 (shapeCast S33554432 (m ((c : Thread nD τ).loc main_arg0)) shapeCasts_S33554432x1_S33554432)
        shapeCasts_S33554432_S262144x128 := by
  show StableHlo.after hostOps0 (fun b => m (c, b)) (Proc.devRef .tc main_v2) = _
  after_results
  rfl

/-- The array window 1 stages is the targets reshaped the same way. -/
theorem V_v3 (c : Dev nD) : (V m c main_v3 : S262144x128.Idx → Elt F .f32)
    = shapeCast S262144x128 (shapeCast S33554432 (m ((c : Thread nD τ).loc main_arg1)) shapeCasts_S33554432x1_S33554432)
        shapeCasts_S33554432_S262144x128 := by
  show StableHlo.after hostOps0 (fun b => m (c, b)) (Proc.devRef .tc main_v3) = _
  after_results
  rfl

/-- Both reshapes keep the row-major position: entry (R, l) of the [262144, 128] view of an [N, 1] array x is x at
    position 128 R + l. -/
theorem reshape2_apply (x : S33554432x1.Idx → Elt F .f32) (R : Fin 262144) (l : Fin 128) :
    shapeCast S262144x128 (shapeCast S33554432 x shapeCasts_S33554432x1_S33554432) shapeCasts_S33554432_S262144x128 (ix2 R l)
      = x (pos (R.val * 128 + l.val)) := by
  have hR := R.isLt
  have hl := l.isLt
  rw [shapeCast_apply _ shapeCasts_S33554432_S262144x128 (ix2 R l) (ix1 ⟨R.val * 128 + l.val, by omega⟩)
        (by rw [Shape.rowMajor_val_one, Shape.rowMajor_val_two]; rfl),
      shapeCast_apply x shapeCasts_S33554432x1_S33554432 _ (pos (R.val * 128 + l.val))
        (by rw [Shape.rowMajor_val_one, Shape.rowMajor_val_two]
            show (R.val * 128 + l.val) % 33554432 * 1 + 0 = R.val * 128 + l.val
            omega)]

/-- The input windows' index maps: block row t, block column 0 at point t (decided over the sixteen points). -/
theorem idx_in : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- Entry (r, l) of the block of predictions point t reads is the prediction at position
    (16384 t + r) 128 + l. -/
theorem iblk0_apply (c : Dev nD) (t : Fin cfg0.N) (r : Fin 16384) (l : Fin 128) :
    (iblk m c 0 t : Vec F S16384x128 .f32) (ix2 r l)
      = m ((c : Thread nD τ).loc main_arg0) (pos ((t.val * 16384 + r.val) * 128 + l.val)) := by
  have hN : t.val < 16 := lt_of_lt_of_eq t.isLt (show cfg0.N = 16 from N_0)
  have hi := (idx_in t).1
  have hr := r.isLt
  unfold iblk
  rw [View.read_apply]
  show V m c main_v2 _ = _
  have e : (((cfg0.win 0).blk t).view.emb (ix2 r l) : S262144x128.Idx)
      = ix2 (⟨t.val * 16384 + r.val, by omega⟩ : Fin 262144) l := funext fun a => Fin.ext (by
    match a with
    | ⟨0, _⟩ => show win0_0.index t 0 * 16384 + 1 * r.val = t.val * 16384 + r.val; rw [hi.1]; omega
    | ⟨1, _⟩ => show win0_0.index t 1 * 128 + 1 * l.val = l.val; rw [hi.2]; omega)
  rw [e, V_v2, reshape2_apply]

/-- The same for the block of targets. -/
theorem iblk1_apply (c : Dev nD) (t : Fin cfg0.N) (r : Fin 16384) (l : Fin 128) :
    (iblk m c 1 t : Vec F S16384x128 .f32) (ix2 r l)
      = m ((c : Thread nD τ).loc main_arg1) (pos ((t.val * 16384 + r.val) * 128 + l.val)) := by
  have hN : t.val < 16 := lt_of_lt_of_eq t.isLt (show cfg0.N = 16 from N_0)
  have hi := (idx_in t).2
  have hr := r.isLt
  unfold iblk
  rw [View.read_apply]
  show V m c main_v3 _ = _
  have e : (((cfg0.win 1).blk t).view.emb (ix2 r l) : S262144x128.Idx)
      = ix2 (⟨t.val * 16384 + r.val, by omega⟩ : Fin 262144) l := funext fun a => Fin.ext (by
    match a with
    | ⟨0, _⟩ => show win0_1.index t 0 * 16384 + 1 * r.val = t.val * 16384 + r.val; rw [hi.1]; omega
    | ⟨1, _⟩ => show win0_1.index t 1 * 128 + 1 * l.val = l.val; rw [hi.2]; omega)
  rw [e, V_v3, reshape2_apply]

end Cert.KernelIdeal.Blocks

end
-- ==== Proof.Chain.lean ====
import proofs.«179878_j24378234372365_2_alg».proof.Proof.Pieces
import proofs.«179878_j24378234372365_2_alg».proof.Proof.Payload
import proofs.«179878_j24378234372365_2_alg».proof.Proof.Blocks

noncomputable section

open Idealize.ShloMosaic Idealize.ShloMosaic.TcCoe Idealize.SL.Sem Idealize.ShloMosaic.ValueIdx
open Idealize.ShloMosaic.Pipeline (Dat)
open scoped BigOperators

namespace Cert.KernelIdeal.Chain

open Cert.KernelIdeal Cert.KernelIdeal.Gen Cert.RangeLoss
open Cert.KernelIdeal.Pieces Cert.KernelIdeal.Payload Cert.KernelIdeal.Blocks

variable (m : (ℓ : Loc nD τ sig) → Buf (Elt Ideal) ℓ)

/-- The loss term of the prediction and target at flat position n. -/
def D (c : Dev nD) (n : ℕ) : EReal :=
  dterm (F := Ideal) (m ((c : Thread nD τ).loc main_arg0) (pos n)) (m ((c : Thread nD τ).loc main_arg1) (pos n))

/-- What grid point t adds at sublane s and lane l: the terms of rows s, 8 + s, 16 + s, ... of block t at lane l. -/
def P (c : Dev nD) (t s l : ℕ) : EReal :=
  ∑ g ∈ Finset.range 2048, D m c ((t * 16384 + (8 * g + s)) * 128 + l)

/-- One point's update of the accumulator, on the point's own blocks. -/
theorem step (c : Dev nD) (t : Fin cfg0.N) (acc : Vec Ideal S1x8x128 .f32) (s : Fin 8) (l : Fin 128) :
    k0_pay2 (F := Ideal) (iblk m c 0 t) (iblk m c 1 t) acc (ix3 0 s l) = acc (ix3 0 s l) + P m c t.val s.val l.val := by
  refine (pay2_apply (iblk m c 0 t) (iblk m c 1 t) acc s l).trans ?_
  congr 1
  unfold P
  rw [Finset.sum_range]
  refine Finset.sum_congr rfl fun g _ => ?_
  refine (congrArg₂ (dterm (F := Ideal)) (iblk0_apply m c t (row g s) l) (iblk1_apply m c t (row g s) l)).trans ?_
  rfl

/-- THE RUNNING SUM. After the point at position n the output's staging buffer holds, at sublane s and lane l, the
    contributions of the points since the last reset: positions n - n mod 8 up to n. By induction on the position:
    a point at a multiple of eight starts again from the zero block, any other adds to what the point before left. -/
theorem outsAt_apply (c : Dev nD) : ∀ (n : ℕ) (h : n < cfg0.N) (s : Fin 8) (l : Fin 128),
    outsAt0 m c n h (ix3 0 s l) = ∑ k ∈ Finset.range (n % 8 + 1), P m c (n - n % 8 + k) s.val l.val
  | 0, h, s, l => by
    rw [outsAt0_A m c ⟨0, h⟩ rfl, out_A, step, pay1_apply, zero_add]
    simp
  | n + 1, h, s, l => by
    by_cases h0 : (n + 1) % 8 = 0
    · rw [outsAt0_A m c ⟨n + 1, h⟩ h0, out_A, step, pay1_apply, zero_add, h0]
      simp
    · rw [outsAt0_B m c ⟨n + 1, h⟩ h0, out_B, step]
      show outsAt0 m c n _ (ix3 0 s l) + _ = _
      rw [outsAt_apply c n _ s l]
      have e1 : (n + 1) % 8 = n % 8 + 1 := by omega
      have e2 : (n + 1) - (n + 1) % 8 = n - n % 8 := by omega
      have e3 : n - n % 8 + (n % 8 + 1) = n + 1 := by omega
      rw [e2, e1, Finset.sum_range_succ (fun k => P m c (n - n % 8 + k) s.val l.val) (n % 8 + 1), e3]

end Cert.KernelIdeal.Chain

end
-- ==== Proof.Final.lean ====
import proofs.«179878_j24378234372365_2_alg».proof.Proof.Chain

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.RangeLoss
open Cert.KernelIdeal.Chain

variable (m : (ℓ : Loc nD τ sig) → Buf (Elt Ideal) ℓ) (ρ : Dev nD → PrngReg)

/-- The array of partial sums the region leaves: entry (h, s, l) holds the contributions of the eight points of
    half h at sublane s and lane l. -/
def Gfun (c : Dev nD) : S2x8x128.Idx → EReal :=
  fun q => ∑ k ∈ Finset.range 8, P m c (8 * (q 0).val + k) (q 1).val (q 2).val

/-- The same function, as contents of the output array. -/
abbrev G (c : Dev nD) : Buf (Elt Ideal) ((c : Thread nD τ).loc main_v4) := Gfun m c

/-- The output window's index map: block t / 8 at point t (decided over the sixteen points); every block is whole. -/
theorem idx_out : ∀ t : Fin cfg0.N, (win0_2.index t 0 = t.val / 8 ∧ win0_2.index t 1 = 0 ∧ win0_2.index t 2 = 0)
    ∧ (win0_2.xsize (grid0.coords t) 0 = 1 ∧ win0_2.xsize (grid0.coords t) 1 = 8 ∧ win0_2.xsize (grid0.coords t) 2 = 128) :=
  (by decide +kernel : ∀ t : Fin grid0.N, (win0_2.index t 0 = t.val / 8 ∧ win0_2.index t 1 = 0 ∧ win0_2.index t 2 = 0)
    ∧ (win0_2.xsize (grid0.coords t) 0 = 1 ∧ win0_2.xsize (grid0.coords t) 1 = 8 ∧ win0_2.xsize (grid0.coords t) 2 = 128))

/-- At the last point of a half the staging buffer holds that half's block of G. -/
theorem G_at (c : Dev nD) (t : Fin cfg0.N) (h7 : t.val % 8 = 7) (j : S1x8x128.Idx) (q : S2x8x128.Idx)
    (hq0 : (q 0).val = t.val / 8 * 1 + 1 * (j 0).val) (hq1 : (q 1).val = 0 * 8 + 1 * (j 1).val)
    (hq2 : (q 2).val = 0 * 128 + 1 * (j 2).val) :
    outsAt0 m c t.val t.isLt j = G m c q := by
  obtain ⟨a, s, l, rfl⟩ : ∃ (a : Fin 1) (s : Fin 8) (l : Fin 128), j = ix3 a s l := ⟨j 0, j 1, j 2, eq_ix3 j⟩
  obtain rfl : a = 0 := Subsingleton.elim _ _
  have e0 : (q 0).val = t.val / 8 := by rw [hq0]; show t.val / 8 * 1 + 1 * 0 = _; omega
  have e1 : (q 1).val = s.val := by rw [hq1]; show 0 * 8 + 1 * s.val = _; omega
  have e2 : (q 2).val = l.val := by rw [hq2]; show 0 * 128 + 1 * l.val = _; omega
  have e3 : t.val - 7 = 8 * (t.val / 8) := by omega
  rw [outsAt_apply]
  show _ = Gfun m c q
  unfold Gfun
  rw [e0, e1, e2, h7, e3]

/-- What a writing-back point writes back is its block of G: the tile is whole (nothing is cut off), and entry
    (0, s, l) of the tile goes to entry (t / 8, s, l) of the array. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  have hi := (idx_out t).1
  show (cfg0.win 2).cut (grid0.coords t) ((dats m 0 c).after 2 t) = _
  rw [after0_2]
  funext y
  rw [View.read_apply]
  refine G_at m c t h7 ((cfg0.win 2).xinj (grid0.coords t) y) _ ?_ ?_ ?_
  · show win0_2.index t 0 * 1 + 1 * _ = _
    rw [hi.1]
  · show win0_2.index t 1 * 8 + 1 * _ = _
    rw [hi.2.1]
  · show win0_2.index t 2 * 128 + 1 * _ = _
    rw [hi.2.2]

/-- Every entry of the output array lies in the block written back at the last point of its half. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 8 := (i 1).isLt
  have h2 : (i 2 : Nat) < 128 := (i 2).isLt
  have hN : cfg0.N = 16 := N_0
  let T : Fin cfg0.N := ⟨8 * (i 0 : Nat) + 7, by rw [hN]; omega⟩
  have hT : T.val = 8 * (i 0 : Nat) + 7 := rfl
  refine ⟨T, (flush0_2 T).mpr (by rw [hT]; omega), ?_⟩
  have hi := idx_out T
  show i ∈ ((View.whole main_v4).slice (win0_2.rect T)).set
  rw [View.set_slice_whole, Rect.mem_set_unit]
  intro a
  match a with
  | ⟨0, _⟩ =>
    show win0_2.index T 0 * win0_2.size 0 ≤ (i 0 : Nat) ∧ (i 0 : Nat) < win0_2.index T 0 * win0_2.size 0 + win0_2.xsize (grid0.coords T) 0
    rw [hi.1.1, hi.2.1, show win0_2.size 0 = 1 from rfl, hT]; omega
  | ⟨1, _⟩ =>
    show win0_2.index T 1 * win0_2.size 1 ≤ (i 1 : Nat) ∧ (i 1 : Nat) < win0_2.index T 1 * win0_2.size 1 + win0_2.xsize (grid0.coords T) 1
    rw [hi.1.2.1, hi.2.2.1]; omega
  | ⟨2, _⟩ =>
    show win0_2.index T 2 * win0_2.size 2 ≤ (i 2 : Nat) ∧ (i 2 : Nat) < win0_2.index T 2 * win0_2.size 2 + win0_2.xsize (grid0.coords T) 2
    rw [hi.1.2.2, hi.2.2.2]; omega

/-- So the output array ends holding G. -/
theorem final_out (c : Dev nD) : (dats m 0 c).arrAt 2 cfg0.N = G m c :=
  (dats m 0 c).arrAt_eq_of_cover 2 (G m c) (flushed_eq m c) (cover c)

/-- The lines after the region, as one function of the output array: the sum of every entry from zero, divided
    by the word of 2^25. -/
def tail (x : S2x8x128.Idx → EReal) : S_.Idx → EReal :=
  Host.divf (F := Ideal) (φ := .f32)
    (Host.reduceAdd (F := Ideal) (φ := .f32) x (constant (F := Ideal) S_ .f32 0x00000000#32) reducesTo_S2x8x128_S_d0_1_2 h_S_)
    (constant (F := Ideal) S_ .f32 0x4C000000#32)

/-- The result buffer after the run is that function of G. -/
theorem tail_v6 (c : Dev nD) : Pipeline.afterTail₀ cfgs (dats m) 0 (V0 m) [hostOps1] c main_v6
    = (tail (Gfun m c) : Buf (Elt Ideal) ((c : Thread nD τ).loc main_v6)) := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v4) = G m c :=
    (Pipeline.withArrays_arr spec0 launch0.win.arr_inj c _ _ 2).trans (final_out m c)
  exact congrArg tail e

/-- THE KERNEL'S RUN, READ: every weakly fair execution ends with the result buffer at the tail of G and both
    arguments as launched. -/
theorem run : θ_run defs (onTc (τ := τ) (main (F := Ideal))) ⟨m, fun _ => 0, ρ⟩ fun r => ∀ c : Dev nD,
      r.2.mem ((c.tc : Thread nD τ).loc main_v6) = (tail (Gfun m c) : Buf (Elt Ideal) ((c : Thread nD τ).loc main_v6))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.LibRangeSum.lean ====
import Idealize.ShloMosaic.Lib.ValueIdx

/-!
# Sums over positions, split by coordinates

In a commutative monoid (the extended reals under addition are one, infinities included) a sum over the positions
below A * B is the double sum over a quotient below A and a remainder below B; nested sums over independent ranges
may be exchanged; and a sum over the index set of a rank-3 array, or of a one-column matrix, is a nested sum over
ranges of its coordinates. None of the statements evaluates an index set, so they apply at any extent.
-/

open scoped BigOperators

namespace Cert.Lib.RangeSum

open Idealize.ShloMosaic Idealize.ShloMosaic.ValueIdx

/-- Positions below A * B, split as a * B + b. -/
theorem sum_range_mul {M : Type*} [AddCommMonoid M] (f : ℕ → M) (A B : ℕ) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- Two outer sums exchanged with two inner ones. -/
theorem sum_comm22 {M : Type*} [AddCommMonoid M] {α β γ δ : Type*} (S : Finset α) (L : Finset β) (K : Finset γ)
    (G : Finset δ) (F : α → β → γ → δ → M) :
    ∑ s ∈ S, ∑ l ∈ L, ∑ k ∈ K, ∑ g ∈ G, F s l k g = ∑ k ∈ K, ∑ g ∈ G, ∑ s ∈ S, ∑ l ∈ L, F s l k g := by
  calc ∑ s ∈ S, ∑ l ∈ L, ∑ k ∈ K, ∑ g ∈ G, F s l k g
      = ∑ s ∈ S, ∑ k ∈ K, ∑ l ∈ L, ∑ g ∈ G, F s l k g := Finset.sum_congr rfl fun s _ => Finset.sum_comm
    _ = ∑ k ∈ K, ∑ s ∈ S, ∑ l ∈ L, ∑ g ∈ G, F s l k g := Finset.sum_comm
    _ = ∑ k ∈ K, ∑ s ∈ S, ∑ g ∈ G, ∑ l ∈ L, F s l k g :=
        Finset.sum_congr rfl fun k _ => Finset.sum_congr rfl fun s _ => Finset.sum_comm
    _ = ∑ k ∈ K, ∑ g ∈ G, ∑ s ∈ S, ∑ l ∈ L, F s l k g := Finset.sum_congr rfl fun k _ => Finset.sum_comm

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set of a function of the coordinates' values, as nested sums over ranges. -/
theorem sum_idx3_range {M : Type*} [AddCommMonoid M] {n0 n1 n2 : Nat} (F : ℕ → ℕ → ℕ → M) :
    ∑ i : (⟨3, ![n0, n1, n2]⟩ : Shape).Idx, F (i 0).val (i 1).val (i 2).val
      = ∑ a ∈ Finset.range n0, ∑ b ∈ Finset.range n1, ∑ c ∈ Finset.range n2, F a b c := by
  rw [sum_idx3, Finset.sum_range]
  refine Finset.sum_congr rfl fun a _ => ?_
  rw [Finset.sum_range]
  refine Finset.sum_congr rfl fun b _ => ?_
  rw [Finset.sum_range]
  rfl

/-- A sum over the index set of an n-by-1 matrix of a function of the row's value, as a sum over a range. -/
theorem sum_idx_col_range {M : Type*} [AddCommMonoid M] {n : Nat} (F : ℕ → M) :
    ∑ i : (⟨2, ![n, 1]⟩ : Shape).Idx, F (i 0).val = ∑ a ∈ Finset.range n, F a := by
  rw [sum_idx2, Finset.sum_range]
  refine Finset.sum_congr rfl fun a _ => ?_
  rw [Fintype.sum_eq_single (0 : Fin 1) (fun b hb => absurd (Subsingleton.elim b 0) hb)]
  rfl

end Cert.Lib.RangeSum
-- ==== Proof.SumLaw.lean ====
import proofs.«179878_j24378234372365_2_alg».proof.Proof.LibRangeSum

/-!
# Every position is summed exactly once

The kernel visits the 2^25 positions as: half c of the rows (2), point k of the half (8), group g of eight rows of the
point's block (2048), row s of the group (8), lane l (128) -- position ((((8 c + k) 2048 + g) 8 + s) 128 + l) --, but
sums them in the order c, s, l outermost (the entries of the output array) and k, g innermost (the points of a half,
the groups of a block). In a commutative monoid the two orders give the same total, which is the sum over all
positions.
-/

open scoped BigOperators

namespace Cert.RangeLoss

open Cert.Lib.RangeSum

theorem regroup {M : Type*} [AddCommMonoid M] (D : ℕ → M) :
    ∑ c ∈ Finset.range 2, ∑ s ∈ Finset.range 8, ∑ l ∈ Finset.range 128, ∑ k ∈ Finset.range 8, ∑ g ∈ Finset.range 2048,
        D (((8 * c + k) * 16384 + (8 * g + s)) * 128 + l)
      = ∑ n ∈ Finset.range 33554432, D n := by
  symm
  have e : (33554432 : ℕ) = (((2 * 8) * 2048) * 8) * 128 := by norm_num
  rw [e, sum_range_mul,
    sum_range_mul (fun a => ∑ l ∈ Finset.range 128, D (a * 128 + l)),
    sum_range_mul (fun b => ∑ s ∈ Finset.range 8, ∑ l ∈ Finset.range 128, D ((b * 8 + s) * 128 + l)),
    sum_range_mul (fun t => ∑ g ∈ Finset.range 2048, ∑ s ∈ Finset.range 8, ∑ l ∈ Finset.range 128,
      D (((t * 2048 + g) * 8 + s) * 128 + l))]
  refine Finset.sum_congr rfl fun c _ => ?_
  rw [sum_comm22 (Finset.range 8) (Finset.range 128) (Finset.range 8) (Finset.range 2048)]
  refine Finset.sum_congr rfl fun k _ => Finset.sum_congr rfl fun g _ => Finset.sum_congr rfl fun s _ =>
    Finset.sum_congr rfl fun l _ => ?_
  congr 1
  ring

end Cert.RangeLoss
-- ==== Proof.Total.lean ====
import proofs.«179878_j24378234372365_2_alg».proof.Proof.Final
import proofs.«179878_j24378234372365_2_alg».proof.Proof.SumLaw
import Idealize.ShloMosaic.PureOps.Ideal.Laws

noncomputable section

open Idealize.ShloMosaic Idealize.ShloMosaic.TcCoe Idealize.SL.Sem Idealize.ShloMosaic.ValueIdx
open scoped BigOperators

namespace Cert.KernelIdeal.Total

open Cert.KernelIdeal Cert.KernelIdeal.Gen Cert.RangeLoss Cert.Lib.RangeSum
open Cert.KernelIdeal.Chain Cert.KernelIdeal.Final

variable (m : (ℓ : Loc nD τ sig) → Buf (Elt Ideal) ℓ)

/-- The lines after the region, read at their one index: zero plus the sum of every entry, divided by 2^25. -/
theorem tail_apply (x : S2x8x128.Idx → EReal) (i : S_.Idx) :
    tail x i = FloatOps.hostDivf (F := Ideal) (φ := .f32)
      (Ideal.ofBits .f32 0x00000000#32 + ∑ q : S2x8x128.Idx, x q) (FloatOps.ofBits (F := Ideal) .f32 0x4C000000#32) := by
  unfold tail
  show FloatOps.hostDivf (F := Ideal) (φ := .f32)
    (Host.reduceAdd (F := Ideal) (φ := .f32) x (constant (F := Ideal) S_ .f32 0x00000000#32) reducesTo_S2x8x128_S_d0_1_2 h_S_ i) _ = _
  congr 1

/-- THE KERNEL'S RESULT: summing the partial sums sums every position's loss term once, so the result is the mean
    of the loss terms over all positions. -/
theorem tail_G (c : Dev nD) : tail (Gfun m c) = mean (D m c) := by
  funext i
  rw [tail_apply]
  unfold mean
  have e : ∑ q : S2x8x128.Idx, Gfun m c q = ∑ n ∈ Finset.range 33554432, D m c n := by
    unfold Gfun
    rw [sum_idx3_range (n0 := 2) (n1 := 8) (n2 := 128) (fun a s l => ∑ k ∈ Finset.range 8, P m c (8 * a + k) s l)]
    unfold P
    exact regroup (D m c)
  rw [e]

end Cert.KernelIdeal.Total

end
-- ==== Proof.LibScatterSet.lean ====
import Idealize.ShloMosaic.PureOps.ShapeOps
import Idealize.ShloMosaic.PureOps.Dims

/-!
# A scatter that overwrites, read at one index

The host scatter whose body returns the update is a left fold of pointwise overwrites over the update positions in
row-major order. Read at an operand index i, such a fold keeps the operand's element when no update lands on i, and
holds update n0 when n0 is the only update landing on i. Nothing here depends on the order of the fold or on the
number of updates, so the statements hold for operands of any size without the list of update positions ever being
evaluated.
-/

namespace Cert.Lib.ScatterSet

open Idealize.ShloMosaic

/-- A left fold whose steps leave index i alone unless the step's position satisfies P keeps the initial value at
    i over a list with no such position. -/
theorem foldl_keep {ι α β : Type} (step : (ι → α) → β → ι → α) (i : ι) (P : β → Prop)
    (hmiss : ∀ r n, ¬ P n → step r n i = r i) :
    ∀ (l : List β) (x : ι → α), (∀ n ∈ l, ¬ P n) → l.foldl step x i = x i := by
  intro l
  induction l with
  | nil => intro x _; rfl
  | cons a t ih =>
    intro x h
    rw [List.foldl_cons, ih _ (fun n hn => h n (List.mem_cons_of_mem _ hn))]
    exact hmiss x a (h a (List.mem_cons_self ..))

/-- If moreover a step at a position satisfying P writes v of that position at i, the fold over a list in which n0
    is the only such position holds v n0 at i. -/
theorem foldl_hit {ι α β : Type} (step : (ι → α) → β → ι → α) (i : ι) (P : β → Prop) (v : β → α)
    (hmiss : ∀ r n, ¬ P n → step r n i = r i) (hhit : ∀ r n, P n → step r n i = v n) :
    ∀ (l : List β) (x : ι → α) (n0 : β), n0 ∈ l → P n0 → (∀ n ∈ l, P n → n = n0) →
      l.foldl step x i = v n0 := by
  intro l
  induction l with
  | nil => intro x n0 h; exact absurd h (List.not_mem_nil)
  | cons a t ih =>
    intro x n0 hmem hP huniq
    rw [List.foldl_cons]
    by_cases ht : n0 ∈ t
    · exact ih _ n0 ht hP (fun n hn => huniq n (List.mem_cons_of_mem _ hn))
    · have ha : n0 = a := by
        rcases List.mem_cons.mp hmem with h | h
        · exact h
        · exact absurd h ht
      subst ha
      rw [foldl_keep step i P hmiss t _ (fun n hn e => ht (huniq n (List.mem_cons_of_mem _ hn) e ▸ hn))]
      exact hhit x n0 hP

/-- The overwriting scatter read at i, when update position j0 is the only one whose result index is i: the
    update's element at j0. -/
theorem scatter_set_apply {s si u : Shape} {α : Type} {w : Nat} (d : ScatterDims s si u) (x : s.Idx → α)
    (idx : IVec si w) (upd : u.Idx → α) (i : s.Idx) (j0 : u.Idx)
    (hhit : d.resultIdx? j0 idx = some i)
    (huniq : ∀ j : u.Idx, d.resultIdx? j idx = some i → j = j0) :
    Host.scatter d (fun _ b => b) x idx upd i = upd j0 := by
  unfold Host.scatter
  refine (foldl_hit _ i (fun n : Fin u.numel => d.resultIdx? (u.rowMajor.symm n) idx = some i)
    (fun n => upd (u.rowMajor.symm n)) ?_ ?_ (List.finRange u.numel) x (u.rowMajor j0) (List.mem_finRange _) ?_ ?_).trans ?_
  · intro r n hP
    dsimp only
    revert hP
    cases d.resultIdx? (u.rowMajor.symm n) idx with
    | none => intro _; rfl
    | some i0 =>
      intro hP
      exact if_neg (fun e => hP (by rw [e]))
  · intro r n hP
    dsimp only at hP ⊢
    rw [hP]
    exact if_pos rfl
  · show d.resultIdx? (u.rowMajor.symm (u.rowMajor j0)) idx = some i
    rw [Equiv.symm_apply_apply]; exact hhit
  · intro n _ hn
    have := huniq _ hn
    rw [← this, Equiv.apply_symm_apply]
  · show upd (u.rowMajor.symm (u.rowMajor j0)) = upd j0
    rw [Equiv.symm_apply_apply]

end Cert.Lib.ScatterSet
-- ==== Proof.RefSide.lean ====
import proofs.«179878_j24378234372365_2_alg».proof.Proof.Gen.ReferenceIdeal.Read
import proofs.«179878_j24378234372365_2_alg».proof.Proof.Term
import proofs.«179878_j24378234372365_2_alg».proof.Proof.LibScatterSet
import proofs.«179878_j24378234372365_2_alg».proof.Proof.LibRangeSum

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read Cert.RangeLoss
open Cert.Lib.ScatterSet Cert.Lib.RangeSum

variable {F : FTy → Type} [FloatOps F]

/-- The reference's scatter writes column 0 of its [N, 1] operand: with the one start index 0, update n lands at
    (n, 0) -- the window runs along the rows, the column is the start index. -/
theorem resultIdx_col (idx : IVec S1 32) (hidx : ∀ k, idx k = 0#32) (j : S33554432.Idx) :
    scatter_S33554432x1_S1_S33554432_0_1_1_0.resultIdx? j idx = some (ix2 (j 0) (0 : Fin 1)) := by
  have s0 : scatter_S33554432x1_S1_S33554432_0_1_1_0.start j idx 0 = 0 := by
    unfold ScatterDims.start; rw [dif_neg (by decide)]
  have s1 : scatter_S33554432x1_S1_S33554432_0_1_1_0.start j idx 1 = 0 := by
    unfold ScatterDims.start; rw [dif_pos (by decide), hidx]; rfl
  have w0 : scatter_S33554432x1_S1_S33554432_0_1_1_0.window j 0 = (j 0).val := by
    unfold ScatterDims.window; rw [dif_pos (by decide)]; rfl
  have w1 : scatter_S33554432x1_S1_S33554432_0_1_1_0.window j 1 = 0 := by
    unfold ScatterDims.window; rw [dif_neg (by decide)]
  have hj : (j 0).val < 33554432 := (j 0).isLt
  unfold ScatterDims.resultIdx?
  rw [dif_pos (by
    intro a
    match a with
    | ⟨0, _⟩ =>
      show 0 ≤ scatter_S33554432x1_S1_S33554432_0_1_1_0.start j idx 0 + scatter_S33554432x1_S1_S33554432_0_1_1_0.window j 0
        ∧ scatter_S33554432x1_S1_S33554432_0_1_1_0.start j idx 0 + scatter_S33554432x1_S1_S33554432_0_1_1_0.window j 0 < (33554432 : ℕ)
      rw [s0, w0]; omega
    | ⟨1, _⟩ =>
      show 0 ≤ scatter_S33554432x1_S1_S33554432_0_1_1_0.start j idx 1 + scatter_S33554432x1_S1_S33554432_0_1_1_0.window j 1
        ∧ scatter_S33554432x1_S1_S33554432_0_1_1_0.start j idx 1 + scatter_S33554432x1_S1_S33554432_0_1_1_0.window j 1 < (1 : ℕ)
      rw [s1, w1]; omega)]
  congr 1
  funext a
  apply Fin.ext
  match a with
  | ⟨0, _⟩ =>
    show (scatter_S33554432x1_S1_S33554432_0_1_1_0.start j idx 0 + scatter_S33554432x1_S1_S33554432_0_1_1_0.window j 0).toNat = (j 0).val
    rw [s0, w0]; omega
  | ⟨1, _⟩ =>
    show (scatter_S33554432x1_S1_S33554432_0_1_1_0.start j idx 1 + scatter_S33554432x1_S1_S33554432_0_1_1_0.window j 1).toNat = 0
    rw [s1, w1]; rfl

/-- So the scattered array holds, in its only column, the update: entry (n, 0) is update n. -/
theorem scatter_apply {α : Type} (x : S33554432x1.Idx → α) (upd : S33554432.Idx → α) (a : Fin 33554432) :
    Host.scatter scatter_S33554432x1_S1_S33554432_0_1_1_0 (fun _ b => b) x
      (broadcastInDim S1 ![] bcast_S_S1 (constantI S_ 32 0#32)) upd (ix2 a (0 : Fin 1)) = upd (ix1 a) := by
  refine scatter_set_apply _ x _ upd _ (ix1 a) ?_ ?_
  · exact resultIdx_col (broadcastInDim S1 ![] bcast_S_S1 (constantI S_ 32 0#32)) (fun _ => rfl) (ix1 a)
  · intro j hj
    have hj' := (resultIdx_col (broadcastInDim S1 ![] bcast_S_S1 (constantI S_ 32 0#32)) (fun _ => rfl) j).symm.trans hj
    have e := Option.some.inj hj'
    have e0 : j 0 = a := congrFun e 0
    funext b
    match b with
    | ⟨0, _⟩ => exact e0

/-- The flattened argument at n is the argument at (n, 0). -/
theorem v0_at (x0 : (⟨S33554432x1, .f32⟩ : BufTy).Contents (Elt F)) (a : Fin 33554432) :
    val_main_v0 (F := F) x0 (ix1 a) = x0 (ix2 a (0 : Fin 1)) := by
  rw [val_main_v0_apply]
  congr 1
  funext b
  match b with
  | ⟨0, _⟩ => exact Fin.ext (Nat.div_one _)
  | ⟨1, _⟩ => rfl

theorem v1_at (x1 : (⟨S33554432x1, .f32⟩ : BufTy).Contents (Elt F)) (a : Fin 33554432) :
    val_main_v1 (F := F) x1 (ix1 a) = x1 (ix2 a (0 : Fin 1)) := by
  rw [val_main_v1_apply]
  congr 1
  funext b
  match b with
  | ⟨0, _⟩ => exact Fin.ext (Nat.div_one _)
  | ⟨1, _⟩ => rfl

/-- Each squared difference the reference sums is the loss term of its entry: the adjusted target in (n, 0) is the
    selected one of prediction n and target n. -/
theorem v13_apply (x0 x1 : (⟨S33554432x1, .f32⟩ : BufTy).Contents (Elt F)) (i : S33554432x1.Idx) :
    val_main_v13 (F := F) x0 x1 i = dterm (x0 i) (x1 i) := by
  obtain ⟨a, b, rfl⟩ : ∃ (a : Fin 33554432) (b : Fin 1), i = ix2 a b := ⟨i 0, i 1, eq_ix2 i⟩
  obtain rfl : b = 0 := Subsingleton.elim _ _
  have e11 : val_main_v11 (F := F) x0 x1 (ix2 a (0 : Fin 1))
      = Scalar.select (IntOp.andi
          (FloatOps.cmpf .ogt (FloatOps.mulf (x0 (ix2 a (0 : Fin 1))) (FloatOps.ofBits .f32 0x3F8CCCCD#32)) (x1 (ix2 a (0 : Fin 1))))
          (FloatOps.cmpf .olt (FloatOps.mulf (x0 (ix2 a (0 : Fin 1))) (FloatOps.ofBits .f32 0x3F666666#32)) (x1 (ix2 a (0 : Fin 1)))))
          (x0 (ix2 a (0 : Fin 1))) (x1 (ix2 a (0 : Fin 1))) := by
    unfold val_main_v11 val_main_v10 val_main_c
    rw [scatter_apply, val_main_v9_apply, val_main_v8_apply, val_main_v4_apply, val_main_v7_apply, val_main_v3_apply,
      val_main_v6_apply, val_main_v2_apply, val_main_v5_apply, val_main_cst_apply, val_main_cst_0_apply, v0_at, v1_at]
  rw [val_main_v13_apply, val_main_v12_apply, e11]
  rfl

/-- THE REFERENCE'S RESULT: the mean of the loss terms over all positions. -/
theorem v15_eq (x0 x1 : (⟨S33554432x1, .f32⟩ : BufTy).Contents (Elt Ideal)) :
    val_main_v15 (F := Ideal) x0 x1 = mean (fun n => dterm (F := Ideal) (x0 (pos n)) (x1 (pos n))) := by
  funext i
  rw [val_main_v15_apply, val_main_v14_apply]
  unfold mean
  have e : ∑ j : S33554432x1.Idx, val_main_v13 (F := Ideal) x0 x1 j
      = ∑ n ∈ Finset.range 33554432, dterm (F := Ideal) (x0 (pos n)) (x1 (pos n)) := by
    rw [← sum_idx_col_range (n := 33554432) (fun n => dterm (F := Ideal) (x0 (pos n)) (x1 (pos n)))]
    refine Finset.sum_congr rfl fun j _ => ?_
    rw [v13_apply, pos_row]
  rw [e]
  rfl

end Cert.ReferenceIdeal.RefValue

end
-- ==== Proof.lean ====
/-
  A mean of band-adjusted squared errors, computed two ways.

  Both programs take predictions p and targets t, each a column of N = 2^25 single-precision numbers, and return one
  number: the mean over n of (p n - t' n)^2, where t' n is p n when t n lies strictly between 0.9 p n and 1.1 p n (the
  two factors the nearest single-precision words) and t n otherwise.

  The reference forms the adjusted column by a scatter into column 0, squares the differences, adds them all up from
  zero and divides by 2^25.

  The kernel views each column as 262144 rows of 128 lanes and walks sixteen blocks of 16384 rows in two halves of
  eight. At each block it forms the same squared differences, folds the block's 2048 groups of eight rows into one
  [8, 128] tile, and adds the tile to an accumulator that the first block of a half resets to zero; each half's
  accumulator is written to its own slot of a [2, 8, 128] array. The lines after the kernel add up that array from
  zero and divide by the same 2^25.

  Over the extended reals addition is commutative and associative (infinities included) and zero is neutral, so the
  two totals are the same sum of the same N terms: position ((((8 c + k) 2048 + g) 8 + s) 128 + l) is the term of half
  c, block k, group g, sublane s, lane l, and these positions enumerate 0 .. N - 1 exactly once. No finiteness of
  the inputs is needed, and the precondition is never opened.

  Modules: Term (the loss term, positions, the mean); LibRangeSum, SumLaw (the regrouping of the sum); LibScatterSet
  (an overwriting scatter read at an index); Pieces, Payload, Blocks, Chain, Final, Total (the kernel: what each case of
  the body leaves, the payload at an index, the blocks as positions of the arguments, the running sum by induction on
  the point, the output array and the lines after it, the total); RefSide (the reference read at an index).
-/
import proofs.«179878_j24378234372365_2_alg».proof.Defs
import proofs.«179878_j24378234372365_2_alg».proof.Proof.Gen.Kernel
import proofs.«179878_j24378234372365_2_alg».proof.Proof.Gen.Kernel.Frame
import proofs.«179878_j24378234372365_2_alg».proof.Proof.Gen.KernelIdeal
import proofs.«179878_j24378234372365_2_alg».proof.Proof.Gen.KernelIdeal.Frame
import proofs.«179878_j24378234372365_2_alg».proof.Proof.Gen.ReferenceIdeal
import proofs.«179878_j24378234372365_2_alg».proof.Proof.Gen.Pre_finite_inputs
import proofs.«179878_j24378234372365_2_alg».proof.Proof.Gen.ReferenceIdeal.Run
import proofs.«179878_j24378234372365_2_alg».proof.Proof.Gen.ReferenceIdeal.Read
import proofs.«179878_j24378234372365_2_alg».proof.Proof.Total
import proofs.«179878_j24378234372365_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of array operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- Both programs end with the mean of the loss terms of all positions of the same arguments. -/
theorem algebraic : Cert.algebraic_KernelIdeal_ReferenceIdeal := by
  intro m ρ m' ρ' _ hagree
  refine ⟨fun c => Cert.KernelIdeal.Final.tail (Cert.KernelIdeal.Final.Gfun m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _).trans ?_
  refine (Cert.ReferenceIdeal.RefValue.v15_eq _ _).trans ?_
  rw [(hagree c).1, (hagree c).2]
  exact (Cert.KernelIdeal.Total.tail_G m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
